-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S128x11 : Shape := ⟨2, ![128, 11]⟩
abbrev S11 : Shape := ⟨1, ![11]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x11 : S_.BroadcastsInDim S128x11 (![] : Fin 0 → Fin S128x11.rank)
  reducesTo_S128x11_S_d0_1 : S128x11.ReducesTo [0, 1] S_
  bcast_S_S11 : S_.BroadcastsInDim S11 (![] : Fin 0 → Fin S11.rank)
  reducesTo_S11_S_d0 : S11.ReducesTo [0] S_

variable [Facts]

def fn_part2 {F : FTy → Type} [FloatOps F] (main_arg9 : FVec F S128 .f32) (main_arg10 : FVec F S128x11 .f32) (main_arg11 : FVec F S11 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x11 .f32 := Host.absf main_arg10
  let main_cst_14 : FVec F S_ .f32 := constant S_ .f32 0x7F800000#32
  let main_v40 : FVec F S128x11 .f32 := broadcastInDim S128x11 ![] bcast_S_S128x11 main_cst_14
  let main_v41 : IVec S128x11 1 := cmpf .olt main_v39 main_v40
  let main_c_15 : IVec S_ 1 := constantI S_ 1 1#1
  let main_v42 : IVec S_ 1 := (fun x v => Host.reduce IntOp.andi x v reducesTo_S128x11_S_d0_1 h_S_) main_v41 main_c_15
  let main_v43 : IVec S_ 1 := andi main_v38 main_v42
  let main_v44 : FVec F S11 .f32 := Host.absf main_arg11
  let main_cst_16 : FVec F S_ .f32 := constant S_ .f32 0x7F800000#32
  let main_v45 : FVec F S11 .f32 := broadcastInDim S11 ![] bcast_S_S11 main_cst_16
  let main_v46 : IVec S11 1 := cmpf .olt main_v44 main_v45
  let main_c_17 : IVec S_ 1 := constantI S_ 1 1#1
  let main_v47 : IVec S_ 1 := (fun x v => Host.reduce IntOp.andi x v reducesTo_S11_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x11 .f32) (main_arg11 : FVec F S11 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : IVec S100000 32) (main_arg3 : FVec F S1600000 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x11 .f32) (main_arg11 : FVec F S11 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S128x11 : Shape := ⟨2, ![128, 11]⟩
abbrev S11 : Shape := ⟨1, ![11]⟩
abbrev S1x1600000 : Shape := ⟨2, ![1, 1600000]⟩
abbrev S_ : Shape := ⟨0, ![]⟩
abbrev S1600000x1 : Shape := ⟨2, ![1600000, 1]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S5000x1 : Shape := ⟨2, ![5000, 1]⟩
abbrev S512x128 : Shape := ⟨2, ![512, 128]⟩
abbrev S512 : Shape := ⟨1, ![512]⟩
abbrev S512x1 : Shape := ⟨2, ![512, 1]⟩
abbrev S512x11 : Shape := ⟨2, ![512, 11]⟩
abbrev S1x11 : Shape := ⟨2, ![1, 11]⟩

abbrev nBuf : Space → Nat
  | .hbm => 125
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x11, .f32⟩
  | .hbm, ⟨11, _⟩ => ⟨S11, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S100000x128, .f32⟩
  | .hbm, ⟨46, _⟩ => ⟨S1600000x1, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S1600000x1, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S100000x1, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S1600000x1, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S1600000x128, .f32⟩
  | .hbm, ⟨97, _⟩ => ⟨S1600000x128, .f32⟩
  | .hbm, ⟨98, _⟩ => ⟨S_, .f32⟩
  | .hbm, ⟨99, _⟩ => ⟨S100000x128, .f32⟩
  | .hbm, ⟨100, _⟩ => ⟨S1600000x1, .i32⟩
  | .hbm, ⟨101, _⟩ => ⟨S100000x128, .f32⟩
  | .hbm, ⟨102, _⟩ => ⟨S100000x1, .f32⟩
  | .hbm, ⟨103, _⟩ => ⟨S1x128, .f32⟩
  | .hbm, ⟨104, _⟩ => ⟨S100000x128, .f32⟩
  | .hbm, ⟨105, _⟩ => ⟨S_, .f32⟩
  | .hbm, ⟨106, _⟩ => ⟨S512x128, .f32⟩
  | .hbm, ⟨107, _⟩ => ⟨S100000x1, .i32⟩
  | .hbm, ⟨108, _⟩ => ⟨S512x128, .f32⟩
  | .hbm, ⟨109, _⟩ => ⟨S_, .f32⟩
  | .hbm, ⟨110, _⟩ => ⟨S100000, .f32⟩
  | .hbm, ⟨111, _⟩ => ⟨S_, .f32⟩
  | .hbm, ⟨112, _⟩ => ⟨S512, .f32⟩
  | .hbm, ⟨113, _⟩ => ⟨S100000x1, .i32⟩
  | .hbm, ⟨114, _⟩ => ⟨S512, .f32⟩
  | .hbm, ⟨115, _⟩ => ⟨S_, .f32⟩
  | .hbm, ⟨116, _⟩ => ⟨S512, .f32⟩
  | .hbm, ⟨117, _⟩ => ⟨S512, .f32⟩
  | .hbm, ⟨118, _⟩ => ⟨S512x1, .f32⟩
  | .hbm, ⟨119, _⟩ => ⟨S512x128, .f32⟩
  | .hbm, ⟨120, _⟩ => ⟨S512x128, .f32⟩
  | .hbm, ⟨121, _⟩ => ⟨S512x11, .f32⟩
  | .hbm, ⟨122, _⟩ => ⟨S1x11, .f32⟩
  | .hbm, ⟨123, _⟩ => ⟨S512x11, .f32⟩
  | .hbm, ⟨124, _⟩ => ⟨S512x11, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_10 : Ref sig .tc := ⟨.hbm, 87, rfl⟩
abbrev main_v63 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_14 : Ref sig .tc := ⟨.hbm, 109, rfl⟩
abbrev main_v81 : Ref sig .tc := ⟨.hbm, 110, rfl⟩
abbrev main_cst_15 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_16 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S11_S1x11_1 : S11.BroadcastsInDim S1x11 (![1] : Fin 1 → Fin S1x11.rank)
  bcast_S1x11_S512x11_0_1 : S1x11.BroadcastsInDim S512x11 (![0, 1] : Fin 2 → Fin S512x11.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x11_S512x11_1_0_0_1_n_n_wf : DotDims.WF S512x128 S128x11 S512x11 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x11_S512x11_1_0_0_1_n_n : DotDims S512x128 S128x11 S512x11 where
  lhsContracting := [1]
  rhsContracting := [0]
  lhsNonContracting := [0]
  rhsNonContracting := [1]
  lhsBatch := []
  rhsBatch := []
  wf := dot_S512x128_S128x11_S512x11_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v61) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S128x11 : Shape := ⟨2, ![128, 11]⟩
abbrev S11 : Shape := ⟨1, ![11]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x11 : Shape := ⟨2, ![512, 11]⟩
abbrev S1x11 : Shape := ⟨2, ![1, 11]⟩

abbrev nBuf : Space → Nat
  | .hbm => 204
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S1600000, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x11, .f32⟩
  | 11 => ⟨S11, .f32⟩
  | 12 => ⟨S1x1600000, .i32⟩
  | 13 => ⟨S1600000, .i32⟩
  | 14 => ⟨S1x1600000, .i32⟩
  | 15 => ⟨S1600000, .i32⟩
  | 16 => ⟨S100000x128, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S1600000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S1600000, .f32⟩
  | 101 => ⟨S1600000x1, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S1600000x128, .f32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S100000, .f32⟩
  | 118 => ⟨S100000x1, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000, .f32⟩
  | 3 => ⟨S1600000x1, .i32⟩
  | 4 => ⟨S100000, .f32⟩
  | 5 => ⟨S_, .f32⟩
  | 6 => ⟨S100000, .f32⟩
  | 7 => ⟨S100000, .f32⟩
  | 8 => ⟨S100000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000, .f32⟩
  | 18 => ⟨S1600000, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000, .f32⟩
  | 28 => ⟨S1600000, .f32⟩
  | 29 => ⟨S1600000x1, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S1600000x128, .f32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S100000, .f32⟩
  | 46 => ⟨S100000x1, .f32⟩
  | 47 => ⟨S100000x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .f32⟩
  | 57 => ⟨S512x128, .f32⟩
  | 58 => ⟨S100000x1, .i32⟩
  | 59 => ⟨S512x128, .f32⟩
  | 60 => ⟨S_, .f32⟩
  | 61 => ⟨S100000, .f32⟩
  | 62 => ⟨S_, .f32⟩
  | 63 => ⟨S512, .f32⟩
  | 64 => ⟨S100000x1, .i32⟩
  | 65 => ⟨S512, .f32⟩
  | 66 => ⟨S_, .f32⟩
  | 67 => ⟨S512, .f32⟩
  | 68 => ⟨S512, .f32⟩
  | 69 => ⟨S512x1, .f32⟩
  | 70 => ⟨S512x128, .f32⟩
  | 71 => ⟨S512x128, .f32⟩
  | 72 => ⟨S512x11, .f32⟩
  | 73 => ⟨S1x11, .f32⟩
  | 74 => ⟨S512x11, .f32⟩
  | 75 => ⟨S512x11, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_9 : Ref sig .tc := ⟨.hbm, 81, rfl⟩
abbrev main_v56 : Ref sig .tc := ⟨.hbm, 82, rfl⟩
abbrev main_v57 : Ref sig .tc := ⟨.hbm, 83, rfl⟩
abbrev main_c_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_11 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call1_cst : Ref sig .tc := ⟨.hbm, 125, rfl⟩
abbrev main_call1_v0 : Ref sig .tc := ⟨.hbm, 126, rfl⟩
abbrev main_v93 : Ref sig .tc := ⟨.hbm, 127, rfl⟩
abbrev main_v94 : Ref sig .tc := ⟨.hbm, 128, rfl⟩
abbrev main_cst_16 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_17 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_18 : Ref sig .tc := ⟨.hbm, 137, rfl⟩
abbrev main_v101 : Ref sig .tc := ⟨.hbm, 138, rfl⟩
abbrev main_v102 : Ref sig .tc := ⟨.hbm, 139, rfl⟩
abbrev main_c_19 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_20 : Ref sig .tc := ⟨.hbm, 147, rfl⟩
abbrev main_v109 : Ref sig .tc := ⟨.hbm, 148, rfl⟩
abbrev main_v110 : Ref sig .tc := ⟨.hbm, 149, rfl⟩
abbrev main_c_21 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_22 : Ref sig .tc := ⟨.hbm, 158, rfl⟩
abbrev main_v118 : Ref sig .tc := ⟨.hbm, 159, rfl⟩
abbrev main_v119 : Ref sig .tc := ⟨.hbm, 160, rfl⟩
abbrev main_c_23 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_24 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_call2_cst : Ref sig .tc := ⟨.hbm, 181, rfl⟩
abbrev main_call2_v0 : Ref sig .tc := ⟨.hbm, 182, rfl⟩
abbrev main_v138 : Ref sig .tc := ⟨.hbm, 183, rfl⟩
abbrev main_cst_25 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_26 : Ref sig .tc := ⟨.hbm, 188, rfl⟩
abbrev main_v142 : Ref sig .tc := ⟨.hbm, 189, rfl⟩
abbrev main_cst_27 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_28 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S11_S1x11_1 : S11.BroadcastsInDim S1x11 (![1] : Fin 1 → Fin S1x11.rank)
  bcast_S1x11_S512x11_0_1 : S1x11.BroadcastsInDim S512x11 (![0, 1] : Fin 2 → Fin S512x11.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x11_S512x11_1_0_0_1_n_n_wf : DotDims.WF S512x128 S128x11 S512x11 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x11_S512x11_1_0_0_1_n_n : DotDims S512x128 S128x11 S512x11 where
  lhsContracting := [1]
  rhsContracting := [0]
  lhsNonContracting := [0]
  rhsNonContracting := [1]
  lhsBatch := []
  rhsBatch := []
  wf := dot_S512x128_S128x11_S512x11_1_0_0_1_n_n_wf

class Facts : Prop extends Facts₀ where

variable [Facts]
-- ==== Proof.KernelRun.lean ====
/-
  The idealized kernel's run with its result named.

  @main is eleven segments: five stretches of host operations and six kernel regions. The buffers' contents at each
  boundary are a fold from the launch memory; after the last stretch every unscoped buffer holds the last boundary's
  contents. The frame states this only of the twelve argument arrays; here the same run is read also at the result
  buffer, which therefore ends at the last boundary's contents there.
-/
import proofs.«138234_j20461224198768_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v93) = W11 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v93 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.Result

end
-- ==== Proof.Carried.lean ====
/-
  What the kernel's buffers hold at the boundaries between its segments, for the values that are computed once and used
  by every layer, and for the arguments.

  The first stretch of host operations computes, from the edge list and the edge weights alone: the source and target
  node of every edge, the per-node normalisation d = dis * dis with dis = rsqrt(1 + sum of the weights of the edges
  arriving at the node), and the per-edge coefficient dis[source] * weight * dis[target]. No later operation and no
  kernel region writes these four buffers or any argument, so at every later boundary they hold what the first stretch
  left, which is operation for operation what the reference computes at the start of its first layer.
-/
import proofs.«138234_j20461224198768_1_alg».proof.Proof.Gen.KernelIdeal.Frame
import proofs.«138234_j20461224198768_1_alg».proof.Proof.Gen.ReferenceIdeal.Read

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.Read (val_main_v1 val_main_v3 val_main_v26 val_main_v40)

variable (m : (ℓ : Loc nD τ sig) → Buf (Elt Ideal) ℓ) (ρ : Dev nD → PrngReg) (c : Dev nD)

/-! ## A region leaves every buffer that is not one of its arrays as it found it -/

theorem keep0 (b : Ref sig .tc) (hb : ∀ w, Pipeline.arrRef spec0 w ≠ b) :
    W2 m ρ c (no_index (Proc.devRef .tc b)) = W1 m ρ c (Proc.devRef .tc b) := W2_of_ne m ρ c b hb
theorem keep1 (b : Ref sig .tc) (hb : ∀ w, Pipeline.arrRef spec1 w ≠ b) :
    W4 m ρ c (no_index (Proc.devRef .tc b)) = W3 m ρ c (Proc.devRef .tc b) := W4_of_ne m ρ c b hb
theorem keep2 (b : Ref sig .tc) (hb : ∀ w, Pipeline.arrRef spec2 w ≠ b) :
    W5 m ρ c (no_index (Proc.devRef .tc b)) = W4 m ρ c (Proc.devRef .tc b) := W5_of_ne m ρ c b hb
theorem keep3 (b : Ref sig .tc) (hb : ∀ w, Pipeline.arrRef spec3 w ≠ b) :
    W7 m ρ c (no_index (Proc.devRef .tc b)) = W6 m ρ c (Proc.devRef .tc b) := W7_of_ne m ρ c b hb
theorem keep4 (b : Ref sig .tc) (hb : ∀ w, Pipeline.arrRef spec4 w ≠ b) :
    W8 m ρ c (no_index (Proc.devRef .tc b)) = W7 m ρ c (Proc.devRef .tc b) := W8_of_ne m ρ c b hb
theorem keep5 (b : Ref sig .tc) (hb : ∀ w, Pipeline.arrRef spec5 w ≠ b) :
    W10 m ρ c (no_index (Proc.devRef .tc b)) = W9 m ρ c (Proc.devRef .tc b) := W10_of_ne m ρ c b hb

/-- Reads a buffer at a boundary back through the segments before it: a host operation's own result buffer holds its
    function of its operands' contents, any other buffer what it held; a region leaves the buffers that are not its
    arrays alone. -/
macro "read_back" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      keep0, keep1, keep2, keep3, keep4, keep5]))

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)

/-! ## The arguments, where a later segment reads them -/

theorem arg0_at1 : W1 m ρ c (Proc.devRef .tc main_arg0) = a0 := by read_back
theorem arg4_at1 : W1 m ρ c (Proc.devRef .tc main_arg4) = a4 := by read_back
theorem arg5_at2 : W2 m ρ c (Proc.devRef .tc main_arg5) = a5 := by read_back
theorem arg6_at4 : W4 m ρ c (Proc.devRef .tc main_arg6) = a6 := by read_back
theorem arg7_at5 : W5 m ρ c (Proc.devRef .tc main_arg7) = a7 := by read_back
theorem arg8_at7 : W7 m ρ c (Proc.devRef .tc main_arg8) = a8 := by read_back
theorem arg9_at8 : W8 m ρ c (Proc.devRef .tc main_arg9) = a9 := by read_back
theorem arg2_at10 : W10 m ρ c (Proc.devRef .tc main_arg2) = a2 := by read_back
theorem arg10_at10 : W10 m ρ c (Proc.devRef .tc main_arg10) = a10 := by read_back
theorem arg11_at10 : W10 m ρ c (Proc.devRef .tc main_arg11) = a11 := by read_back

/-! ## The edge-derived values after the first stretch -/

theorem src_at1 : W1 m ρ c (Proc.devRef .tc main_v1) = val_main_v1 (F := Ideal) a1 := by read_back; rfl
theorem dst_at1 : W1 m ρ c (Proc.devRef .tc main_v3) = val_main_v3 (F := Ideal) a1 := by read_back; rfl
theorem dis2_at1 : W1 m ρ c (Proc.devRef .tc main_v10) = val_main_v40 (F := Ideal) a1 a3 := by read_back; rfl
theorem coef_at1 : W1 m ρ c (Proc.devRef .tc main_v26) = val_main_v26 (F := Ideal) a1 a3 := by read_back; rfl

end Cert.KernelIdeal.Chain

end
-- ==== Proof.Bodies.lean ====
/-
  The six kernel bodies read at one index of their 5000 x 128 output block, at the extended reals.

  Matmul bodies: the two operands are narrowed to bf16 (the identity on extended reals) and multiplied into a zero
  accumulator, so entry (p, q) of the block is the sum over k of x[p, k] * w[k, q].
  Combine bodies: entry (p, q) is max((agg[p, q] + d[p, 0] * h[p, q]) + b[0, q], 0): the one-column operand d is spread
  along the row, the one-row operand b along the column, and the additions are grouped in that order.
-/
import proofs.«138234_j20461224198768_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Bodies

open Cert.KernelIdeal Cert.KernelIdeal.Gen Idealize.ShloMosaic Idealize.ShloMosaic.ValueIdx

/-! ## The block product -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator: entry (p, q) is row p of the left operand against column q of the
    right one, the contracted axis run through as k = 0 .. 127. -/
theorem blockDot_apply {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row (ix2 p q) _
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ => exact rhs_col (ix2 p q) _)
  rw [el, er]

/-- The first layer's matmul body at an index. -/
theorem dense0_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  exact blockDot_apply (truncf .bf16 x bitsLt_bf16_f32) (truncf .bf16 w bitsLt_bf16_f32) p q

/-- The second layer's matmul body at an index (its left operand passes through a reshape to its own shape first). -/
theorem dense2_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  unfold k2_pay1
  refine (blockDot_apply (truncf .bf16 (shapeCast S5000x128 x shapeCasts_S5000x128_S5000x128) bitsLt_bf16_f32) (truncf .bf16 w bitsLt_bf16_f32) p q).trans ?_
  rw [shapeCast_self]
  rfl

/-- The third layer's matmul body at an index. -/
theorem dense4_apply (x : Vec Ideal S5000x128 .f32) (w : Vec Ideal S128x128 .f32) (p : Fin 5000) (q : Fin 128) :
    k4_pay1 (F := Ideal) x w (ix2 p q) = ∑ k : Fin 128, x (ix2 p k) * w (ix2 k q) := by
  unfold k4_pay1
  refine (blockDot_apply (truncf .bf16 (shapeCast S5000x128 x shapeCasts_S5000x128_S5000x128) bitsLt_bf16_f32) (truncf .bf16 w bitsLt_bf16_f32) p q).trans ?_
  rw [shapeCast_self]
  rfl

/-! ## The closing step of a layer -/

/-- A one-column block spread along the row, read at (p, q), is the column's entry at row p. -/
theorem spread_col_apply (d : Vec Ideal S5000x1 .f32) (p : Fin 5000) (q : Fin 128) :
    broadcastTo S5000x128 d broadcasts_S5000x1_S5000x128 (ix2 p q) = d (ix2 p (0 : Fin 1)) :=
  broadcastTo_apply d broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A one-row block spread along the column, read at (p, q), is the row's entry at column q. -/
theorem spread_row_apply (b : Vec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The first layer's combine body at an index. -/
theorem combine1_apply (a : Vec Ideal S5000x128 .f32) (d : Vec Ideal S5000x1 .f32) (h : Vec Ideal S5000x128 .f32)
    (b : Vec Ideal S1x128 .f32) (p : Fin 5000) (q : Fin 128) :
    k1_pay1 (F := Ideal) a d h b (ix2 p q)
      = max ((a (ix2 p q) + d (ix2 p (0 : Fin 1)) * h (ix2 p q)) + b (ix2 (0 : Fin 1) q)) (Ideal.ofBits .f32 0x00000000#32) := by
  unfold k1_pay1
  simp only [shapeCast_self]
  show max ((a (ix2 p q) + broadcastTo S5000x128 d broadcasts_S5000x1_S5000x128 (ix2 p q) * h (ix2 p q)) + broadcastTo S5000x128 b broadcasts_S1x128_S5000x128 (ix2 p q)) _ = _
  rw [spread_col_apply, spread_row_apply]
  rfl

/-- The second layer's combine body at an index. -/
theorem combine3_apply (a : Vec Ideal S5000x128 .f32) (d : Vec Ideal S5000x1 .f32) (h : Vec Ideal S5000x128 .f32)
    (b : Vec Ideal S1x128 .f32) (p : Fin 5000) (q : Fin 128) :
    k3_pay1 (F := Ideal) a d h b (ix2 p q)
      = max ((a (ix2 p q) + d (ix2 p (0 : Fin 1)) * h (ix2 p q)) + b (ix2 (0 : Fin 1) q)) (Ideal.ofBits .f32 0x00000000#32) :=
  combine1_apply a d h b p q

/-- The third layer's combine body at an index. -/
theorem combine5_apply (a : Vec Ideal S5000x128 .f32) (d : Vec Ideal S5000x1 .f32) (h : Vec Ideal S5000x128 .f32)
    (b : Vec Ideal S1x128 .f32) (p : Fin 5000) (q : Fin 128) :
    k5_pay1 (F := Ideal) a d h b (ix2 p q)
      = max ((a (ix2 p q) + d (ix2 p (0 : Fin 1)) * h (ix2 p q)) + b (ix2 (0 : Fin 1) q)) (Ideal.ofBits .f32 0x00000000#32) :=
  combine1_apply a d h b p q

end Cert.KernelIdeal.Bodies

end
-- ==== Proof.Spec.lean ====
/-
  The two dense pieces of a graph-convolution layer, as whole-array functions over the extended reals.

  A node-feature array has 100000 rows (nodes) and 128 columns (features).
  * `dense x w` is the matrix product: entry (i, j) is the sum over k of x[i, k] * w[k, j].
  * `combine agg d h b` is the layer's closing step: entry (i, j) is max((agg[i, j] + d[i] * h[i, j]) + b[j], 0), the
    neighbour sum plus the self-loop term (the node's own transformed features scaled by its normalisation d[i]),
    plus the bias, clamped below at zero. The additions are grouped exactly in this order.
  `combineCols` is the same function with d given as a one-column array and b as a one-row array; the two agree when
  those are the reshapes of the vectors (`combineCols_reshape`).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gcn

open Idealize.ShloMosaic Idealize.ShloMosaic.ValueIdx

abbrev Nodes : Shape := ⟨2, ![100000, 128]⟩
abbrev Weights : Shape := ⟨2, ![128, 128]⟩
abbrev NodeCol : Shape := ⟨2, ![100000, 1]⟩
abbrev FeatRow : Shape := ⟨2, ![1, 128]⟩
abbrev NodeVec : Shape := ⟨1, ![100000]⟩
abbrev FeatVec : Shape := ⟨1, ![128]⟩

/-- The matrix product of node features with a weight matrix. -/
def dense (x : FVec Ideal Nodes .f32) (w : FVec Ideal Weights .f32) : FVec Ideal Nodes .f32 :=
  fun i => ∑ k : Fin 128, x (ix2 (i 0) k) * w (ix2 k (i 1))

/-- Neighbour sum + self-loop term + bias, clamped at zero; d one entry per node, b one entry per feature. -/
def combine (agg : FVec Ideal Nodes .f32) (d : FVec Ideal NodeVec .f32) (h : FVec Ideal Nodes .f32)
    (b : FVec Ideal FeatVec .f32) : FVec Ideal Nodes .f32 :=
  fun i => max ((agg i + d (ix1 (i 0)) * h i) + b (ix1 (i 1))) (Ideal.ofBits .f32 0x00000000#32)

/-- The same with d as a one-column array and b as a one-row array. -/
def combineCols (agg : FVec Ideal Nodes .f32) (d : FVec Ideal NodeCol .f32) (h : FVec Ideal Nodes .f32)
    (b : FVec Ideal FeatRow .f32) : FVec Ideal Nodes .f32 :=
  fun i => max ((agg i + d (ix2 (i 0) (0 : Fin 1)) * h i) + b (ix2 (0 : Fin 1) (i 1))) (Ideal.ofBits .f32 0x00000000#32)

/-- A vector of 100000 entries reshaped to one column, read at row p, is the vector's entry p. -/
theorem reshape_col_apply {α : Type} (d : NodeVec.Idx → α) (h : NodeVec.ShapeCasts NodeCol) (p : Fin 100000) :
    shapeCast NodeCol d h (ix2 p (0 : Fin 1)) = d (ix1 p) :=
  shapeCast_apply d h (ix2 p (0 : Fin 1)) (ix1 p) (by
    rw [Shape.rowMajor_val_one, Shape.rowMajor_val_two]
    show p.val = p.val * 1 + 0
    omega)

/-- A vector of 128 entries reshaped to one row, read at column q, is the vector's entry q. -/
theorem reshape_row_apply {α : Type} (b : FeatVec.Idx → α) (h : FeatVec.ShapeCasts FeatRow) (q : Fin 128) :
    shapeCast FeatRow b h (ix2 (0 : Fin 1) q) = b (ix1 q) :=
  shapeCast_apply b h (ix2 (0 : Fin 1) q) (ix1 q) (by
    rw [Shape.rowMajor_val_one, Shape.rowMajor_val_two]
    show q.val = 0 * 128 + q.val
    omega)

/-- With the column and the row the reshapes of the two vectors, the two forms of the closing step agree. -/
theorem combineCols_reshape (agg : FVec Ideal Nodes .f32) (d : FVec Ideal NodeVec .f32) (h : FVec Ideal Nodes .f32)
    (b : FVec Ideal FeatVec .f32) (hd : NodeVec.ShapeCasts NodeCol) (hb : FeatVec.ShapeCasts FeatRow) :
    combineCols agg (shapeCast NodeCol d hd) h (shapeCast FeatRow b hb) = combine agg d h b := by
  funext i
  unfold combineCols combine
  rw [reshape_col_apply d hd (i 0), reshape_row_apply b hb (i 1)]

end Cert.Gcn

end
-- ==== Proof.Region0.lean ====
/-
  Region 0 (the first layer's matmul) as one whole-array function, whatever the buffers hold when the region is entered.

  The grid has 20 points; point t takes rows 5000 t .. 5000 t + 4999 of the node features (all 128 columns) and the whole
  128 x 128 weight matrix, and writes back rows 5000 t .. 5000 t + 4999 of the output. A row r of the output is therefore
  written by point r / 5000 alone, the blocks tile the output, and the output array ends as `dense` of the two input
  arrays: entry (i, j) the sum over k of x[i, k] * w[k, j].
-/
import proofs.«138234_j20461224198768_1_alg».proof.Proof.Gen.KernelIdeal.Frame
import proofs.«138234_j20461224198768_1_alg».proof.Proof.Bodies
import proofs.«138234_j20461224198768_1_alg».proof.Proof.Spec

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The block index maps of region 0 over its 20 points: rows move with the point, columns stay. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two input arrays. -/
theorem flushed0 (c : Dev nD) (t : Fin cfg0.N) :
    (dat0 V c).flushed 2 t = ((cfg0.win 2).blk t).view.read (Elt Ideal)
      (Cert.Gcn.dense (V c (Pipeline.arrRef spec0 0)) (V c (Pipeline.arrRef spec0 1))) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  obtain ⟨e0, e1, e2, e3, e4, e5⟩ := index0 t
  refine funext fun (j : S5000x128.Idx) => ?_
  obtain ⟨p, q, rfl⟩ : ∃ (p : Fin 5000) (q : Fin 128), j = ix2 p q := ⟨j 0, j 1, eq_ix2 j⟩
  refine (Bodies.dense0_apply (iblk0 V c 0 t) (iblk0 V c 1 t) p q).trans ?_
  show _ = Cert.Gcn.dense (V c (Pipeline.arrRef spec0 0)) (V c (Pipeline.arrRef spec0 1)) (((cfg0.win 2).blk t).view.emb (ix2 p q))
  unfold Cert.Gcn.dense
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg₂ (· * ·) (congrArg (V c (Pipeline.arrRef spec0 0)) h0) (congrArg (V c (Pipeline.arrRef spec0 1)) h1)

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every index of the output lies in the block of the point its row belongs to. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨e0, e1, e2, e3, e4, e5⟩ := index0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0's output array after the region is the product of its two input arrays as the region found them. -/
theorem dense0 (c : Dev nD) :
    (dat0 V c).arrAt 2 cfg0.N = Cert.Gcn.dense (V c (Pipeline.arrRef spec0 0)) (V c (Pipeline.arrRef spec0 1)) :=
  (dat0 V c).arrAt_eq_of_cover 2 _ (fun t _ => flushed0 V c t) cover0

end Cert.KernelIdeal.RegionValue

end
-- ==== Proof.Region1.lean ====
/-
  Region 1 (the first layer's closing step) as one whole-array function of the buffers it is entered with.

  The grid has 20 points; point t takes rows 5000 t .. 5000 t + 4999 of the neighbour sum, of the one-column
  normalisation array and of the layer's matrix product, and the whole one-row bias array, and writes back the same rows
  of the output. Every input row block sits at the output block's rows, so entry (i, j) of the output depends on entry
  (i, j) of the two full arrays, entry (i, 0) of the column and entry (0, j) of the row: the output array ends as
  `combineCols` of the four input arrays.
-/
import proofs.«138234_j20461224198768_1_alg».proof.Proof.Gen.KernelIdeal.Frame
import proofs.«138234_j20461224198768_1_alg».proof.Proof.Bodies
import proofs.«138234_j20461224198768_1_alg».proof.Proof.Spec
import proofs.«138234_j20461224198768_1_alg».proof.Proof.Region0

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The block index maps of region 1 over its 20 points: rows move with the point (the bias row stays), columns stay. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 4000000 in
/-- What point t writes back is block t of the closing step of the four input arrays. -/
theorem flushed1 (c : Dev nD) (t : Fin cfg1.N) :
    (dat1 V c).flushed 4 t = ((cfg1.win 4).blk t).view.read (Elt Ideal)
      (Cert.Gcn.combineCols (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero origin2]
  simp only [View.ld_unit_zero (S := S5000x128) origin2, View.ld_unit_zero (S := S5000x1) origin2, View.ld_unit_zero (S := S1x128) origin2]
  obtain ⟨e0, e1, e2, e3, e4, e5, e6, e7, e8, e9⟩ := index1 t
  refine funext fun (j : S5000x128.Idx) => ?_
  obtain ⟨p, q, rfl⟩ : ∃ (p : Fin 5000) (q : Fin 128), j = ix2 p q := ⟨j 0, j 1, eq_ix2 j⟩
  refine (Bodies.combine1_apply (iblk1 V c 0 t) (iblk1 V c 1 t) (iblk1 V c 2 t) (iblk1 V c 3 t) p q).trans ?_
  show _ = Cert.Gcn.combineCols (V c (Pipeline.arrRef spec1 0)) (V c (Pipeline.arrRef spec1 1)) (V c (Pipeline.arrRef spec1 2)) (V c (Pipeline.arrRef spec1 3)) (((cfg1.win 4).blk t).view.emb (ix2 p q))
  unfold Cert.Gcn.combineCols
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : ((cfg1.win 1).blk t).view.emb (ix2 p (0 : Fin 1)) = ix2 ((((cfg1.win 4).blk t).view.emb (ix2 p q)) 0) (0 : Fin 1) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  have h2 : ((cfg1.win 2).blk t).view.emb (ix2 p q) = ((cfg1.win 4).blk t).view.emb (ix2 p q) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 128 + 1 * q.val = win1_4.index t (1 : Fin 2) * 128 + 1 * q.val; omega
  have h3 : ((cfg1.win 3).blk t).view.emb (ix2 (0 : Fin 1) q) = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  have hA : iblk1 V c 0 t (ix2 p q) = V c (Pipeline.arrRef spec1 0) (((cfg1.win 4).blk t).view.emb (ix2 p q)) :=
    congrArg (V c (Pipeline.arrRef spec1 0)) h0
  have hD : iblk1 V c 1 t (ix2 p (0 : Fin 1)) = V c (Pipeline.arrRef spec1 1) (ix2 ((((cfg1.win 4).blk t).view.emb (ix2 p q)) 0) (0 : Fin 1)) :=
    congrArg (V c (Pipeline.arrRef spec1 1)) h1
  have hH : iblk1 V c 2 t (ix2 p q) = V c (Pipeline.arrRef spec1 2) (((cfg1.win 4).blk t).view.emb (ix2 p q)) :=
    congrArg (V c (Pipeline.arrRef spec1 2)) h2
  have hB : iblk1 V c 3 t (ix2 (0 : Fin 1) q) = V c (Pipeline.arrRef spec1 3) (ix2 (0 : Fin 1) ((((cfg1.win 4).blk t).view.emb (ix2 p q)) 1)) :=
    congrArg (V c (Pipeline.arrRef spec1 3)) h3
  rw [hA, hD, hH, hB]

/-- An index of the output array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Every index of the output lies in the block of the point its row belongs to. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨e0, e1, e2, e3, e4, e5, e6, e7, e8, e9⟩ := index1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- Region 1's output array after the region is the closing step of its four input arrays as the region found them. -/
theorem closing1 (c : Dev nD) :
    (dat1 V c).arrAt 4 cfg1.N = Cert.Gcn.combineCols (V c (Pipeline.arrRef spec1 0)) (V c (Pipeline.arrRef spec1 1)) (V c (Pipeline.arrRef spec1 2)) (V c (Pipeline.arrRef spec1 3)) :=
  (dat1 V c).arrAt_eq_of_cover 4 _ (fun t _ => flushed1 V c t) cover1

end Cert.KernelIdeal.RegionValue

end
-- ==== Proof.Region2.lean ====
/-
  Region 2 (the second layer's matmul) as one whole-array function of the buffers it is entered with.

  As in the first layer: 20 points, point t takes rows 5000 t .. 5000 t + 4999 of the first layer's output and the whole
  second weight matrix and writes back the same rows of the output, which ends as `dense` of the two input arrays.
-/
import proofs.«138234_j20461224198768_1_alg».proof.Proof.Gen.KernelIdeal.Frame
import proofs.«138234_j20461224198768_1_alg».proof.Proof.Bodies
import proofs.«138234_j20461224198768_1_alg».proof.Proof.Spec
import proofs.«138234_j20461224198768_1_alg».proof.Proof.Region0

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The block index maps of region 2 over its 20 points: rows move with the point, columns stay. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two input arrays. -/
theorem flushed2 (c : Dev nD) (t : Fin cfg2.N) :
    (dat2 V c).flushed 2 t = ((cfg2.win 2).blk t).view.read (Elt Ideal)
      (Cert.Gcn.dense (V c (Pipeline.arrRef spec2 0)) (V c (Pipeline.arrRef spec2 1))) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x128) origin2]
  obtain ⟨e0, e1, e2, e3, e4, e5⟩ := index2 t
  refine funext fun (j : S5000x128.Idx) => ?_
  obtain ⟨p, q, rfl⟩ : ∃ (p : Fin 5000) (q : Fin 128), j = ix2 p q := ⟨j 0, j 1, eq_ix2 j⟩
  refine (Bodies.dense2_apply (iblk2 V c 0 t) (iblk2 V c 1 t) p q).trans ?_
  show _ = Cert.Gcn.dense (V c (Pipeline.arrRef spec2 0)) (V c (Pipeline.arrRef spec2 1)) (((cfg2.win 2).blk t).view.emb (ix2 p q))
  unfold Cert.Gcn.dense
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact congrArg₂ (· * ·) (congrArg (V c (Pipeline.arrRef spec2 0)) h0) (congrArg (V c (Pipeline.arrRef spec2 1)) h1)

/-- An index of the output array is in point t's block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Every index of the output lies in the block of the point its row belongs to. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨e0, e1, e2, e3, e4, e5⟩ := index2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- Region 2's output array after the region is the product of its two input arrays as the region found them. -/
theorem dense2 (c : Dev nD) :
    (dat2 V c).arrAt 2 cfg2.N = Cert.Gcn.dense (V c (Pipeline.arrRef spec2 0)) (V c (Pipeline.arrRef spec2 1)) :=
  (dat2 V c).arrAt_eq_of_cover 2 _ (fun t _ => flushed2 V c t) cover2

end Cert.KernelIdeal.RegionValue

end
-- ==== Proof.RefValue.lean ====
/-
  The reference's layer stages as the two whole-array functions of the specification.

  Each of the reference's three matrix products is `dense` of its operands: the generated read of a dot_general at an
  index is the sum over k of left[i 0, k] * right[k, i 1]. Each of its three relu stages is `combine` of the layer's
  neighbour sum, the per-node normalisation d = dis * dis, the layer's matrix product and the bias vector: the reference
  spreads d along the row and the bias along the column by broadcasts whose index maps send (i, j) to i and to j.
  The reference computes d afresh in every layer from the same edge data; the three are one function.
-/
import proofs.«138234_j20461224198768_1_alg».proof.Proof.Gen.ReferenceIdeal.Read
import proofs.«138234_j20461224198768_1_alg».proof.Proof.Spec

set_option maxRecDepth 16384

noncomputable section

open scoped BigOperators

namespace Cert.ReferenceIdeal.RefValue

open Cert.ReferenceIdeal Cert.ReferenceIdeal.Read Idealize.ShloMosaic Idealize.ShloMosaic.ValueIdx
open Cert.Gcn

/-! ## The matrix products -/

/-- The host's matrix product of a 100000 x 128 array with a 128 x 128 one is `dense`. -/
theorem hostDot_eq (x : FVec Ideal S100000x128 .f32) (w : FVec Ideal S128x128 .f32) :
    Host.dotGeneral dot_S100000x128_S128x128_S100000x128_1_0_0_1_n_n none x w = dense x w := by
  funext i
  refine (val_main_v4_apply x w i).trans ?_
  unfold dense
  refine Finset.sum_congr rfl fun k _ => ?_
  have el : lidx_main_v4 i k = ix2 (i 0) k := funext fun a => Fin.ext (by
    match a with
    | ⟨0, _⟩ => rfl
    | ⟨1, _⟩ => rfl)
  have er : ridx_main_v4 i k = ix2 k (i 1) := funext fun a => Fin.ext (by
    match a with
    | ⟨0, _⟩ => rfl
    | ⟨1, _⟩ => rfl)
  rw [el, er]
  rfl

theorem dense1 (x0 : FVec Ideal S100000x128 .f32) (x4 : FVec Ideal S128x128 .f32) :
    val_main_v4 (F := Ideal) x0 x4 = dense x0 x4 := hostDot_eq x0 x4

theorem dense2 (x0 : FVec Ideal S100000x128 .f32) (x1 : IVec S2x1600000 32) (x3 : FVec Ideal S1600000 .f32)
    (x4 : FVec Ideal S128x128 .f32) (x5 : FVec Ideal S128 .f32) (x6 : FVec Ideal S128x128 .f32) :
    val_main_v49 (F := Ideal) x0 x1 x3 x4 x5 x6 = dense (val_main_v48 (F := Ideal) x0 x1 x3 x4 x5) x6 :=
  hostDot_eq _ x6

theorem dense3 (x0 : FVec Ideal S100000x128 .f32) (x1 : IVec S2x1600000 32) (x3 : FVec Ideal S1600000 .f32)
    (x4 : FVec Ideal S128x128 .f32) (x5 : FVec Ideal S128 .f32) (x6 : FVec Ideal S128x128 .f32)
    (x7 : FVec Ideal S128 .f32) (x8 : FVec Ideal S128x128 .f32) :
    val_main_v94 (F := Ideal) x0 x1 x3 x4 x5 x6 x7 x8 = dense (val_main_v93 (F := Ideal) x0 x1 x3 x4 x5 x6 x7) x8 :=
  hostDot_eq _ x8

/-! ## The per-node normalisation is computed three times from the same edge data -/

theorem dis2_second (x1 : IVec S2x1600000 32) (x3 : FVec Ideal S1600000 .f32) :
    val_main_v85 (F := Ideal) x1 x3 = val_main_v40 (F := Ideal) x1 x3 := rfl

theorem dis2_third (x1 : IVec S2x1600000 32) (x3 : FVec Ideal S1600000 .f32) :
    val_main_v130 (F := Ideal) x1 x3 = val_main_v40 (F := Ideal) x1 x3 := rfl

/-! ## The closing step of each layer -/

theorem node_of (i : S100000x128.Idx) : idx_main_v41 (idx_main_v42 i) = ix1 (i 0) := funext fun a => Fin.ext (by
  match a with
  | ⟨0, _⟩ => rfl)

theorem feat_of (i : S100000x128.Idx) : idx_main_v45 (idx_main_v46 i) = ix1 (i 1) := funext fun a => Fin.ext (by
  match a with
  | ⟨0, _⟩ => rfl)

theorem combine1 (x0 : FVec Ideal S100000x128 .f32) (x1 : IVec S2x1600000 32) (x3 : FVec Ideal S1600000 .f32)
    (x4 : FVec Ideal S128x128 .f32) (x5 : FVec Ideal S128 .f32) :
    val_main_v48 (F := Ideal) x0 x1 x3 x4 x5
      = combine (val_main_v39 (F := Ideal) x0 x1 x3 x4) (val_main_v40 (F := Ideal) x1 x3) (val_main_v4 (F := Ideal) x0 x4) x5 := by
  funext i
  rw [val_main_v48_apply, val_main_v47_apply, val_main_v44_apply, val_main_v43_apply, val_main_v42_apply, val_main_v41_apply,
    val_main_v46_apply, val_main_v45_apply, val_main_call0_v0_apply, val_main_call0_cst_apply, node_of, feat_of]
  rfl

theorem node_of2 (i : S100000x128.Idx) : idx_main_v86 (idx_main_v87 i) = ix1 (i 0) := funext fun a => Fin.ext (by
  match a with
  | ⟨0, _⟩ => rfl)

theorem feat_of2 (i : S100000x128.Idx) : idx_main_v90 (idx_main_v91 i) = ix1 (i 1) := funext fun a => Fin.ext (by
  match a with
  | ⟨0, _⟩ => rfl)

theorem combine2 (x0 : FVec Ideal S100000x128 .f32) (x1 : IVec S2x1600000 32) (x3 : FVec Ideal S1600000 .f32)
    (x4 : FVec Ideal S128x128 .f32) (x5 : FVec Ideal S128 .f32) (x6 : FVec Ideal S128x128 .f32) (x7 : FVec Ideal S128 .f32) :
    val_main_v93 (F := Ideal) x0 x1 x3 x4 x5 x6 x7
      = combine (val_main_v84 (F := Ideal) x0 x1 x3 x4 x5 x6) (val_main_v40 (F := Ideal) x1 x3)
          (val_main_v49 (F := Ideal) x0 x1 x3 x4 x5 x6) x7 := by
  funext i
  rw [val_main_v93_apply, val_main_v92_apply, val_main_v89_apply, val_main_v88_apply, val_main_v87_apply, val_main_v86_apply,
    val_main_v91_apply, val_main_v90_apply, val_main_call1_v0_apply, val_main_call1_cst_apply, node_of2, feat_of2, dis2_second]
  rfl

theorem node_of3 (i : S100000x128.Idx) : idx_main_v131 (idx_main_v132 i) = ix1 (i 0) := funext fun a => Fin.ext (by
  match a with
  | ⟨0, _⟩ => rfl)

theorem feat_of3 (i : S100000x128.Idx) : idx_main_v135 (idx_main_v136 i) = ix1 (i 1) := funext fun a => Fin.ext (by
  match a with
  | ⟨0, _⟩ => rfl)

theorem combine3 (x0 : FVec Ideal S100000x128 .f32) (x1 : IVec S2x1600000 32) (x3 : FVec Ideal S1600000 .f32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) :
    val_main_v138 (F := Ideal) x0 x1 x3 x4 x5 x6 x7 x8 x9
      = combine (val_main_v129 (F := Ideal) x0 x1 x3 x4 x5 x6 x7 x8) (val_main_v40 (F := Ideal) x1 x3)
          (val_main_v94 (F := Ideal) x0 x1 x3 x4 x5 x6 x7 x8) x9 := by
  funext i
  rw [val_main_v138_apply, val_main_v137_apply, val_main_v134_apply, val_main_v133_apply, val_main_v132_apply, val_main_v131_apply,
    val_main_v136_apply, val_main_v135_apply, val_main_call2_v0_apply, val_main_call2_cst_apply, node_of3, feat_of3, dis2_third]
  rfl

end Cert.ReferenceIdeal.RefValue

end
-- ==== Proof.Layer1.lean ====
/-
  The first layer, buffer by buffer, in the kernel's program, against the reference's stages.

  Region 0 leaves the matrix product of the node features with the first weight matrix. The second stretch of host
  operations gathers its rows at the edges' source nodes, scales them by the per-edge coefficient and sums them into the
  edges' target nodes — the same gather, product and scatter-add, applied to the same operands, as the reference's
  neighbour sum — and reshapes the per-node normalisation to one column and the bias to one row. Region 1 closes the
  layer, and region 2 multiplies the result with the second weight matrix.
-/
import proofs.«138234_j20461224198768_1_alg».proof.Proof.Carried
import proofs.«138234_j20461224198768_1_alg».proof.Proof.Region0
import proofs.«138234_j20461224198768_1_alg».proof.Proof.Region1
import proofs.«138234_j20461224198768_1_alg».proof.Proof.Region2
import proofs.«138234_j20461224198768_1_alg».proof.Proof.RefValue

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.Read (val_main_v1 val_main_v3 val_main_v26 val_main_v40 val_main_v4 val_main_v39 val_main_v48 val_main_v49)

variable (m : (ℓ : Loc nD τ sig) → Buf (Elt Ideal) ℓ) (ρ : Dev nD → PrngReg) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)

/-! ## The edge-derived values as region 0 leaves them (it writes none of them) -/

theorem src_at2 : W2 m ρ c (Proc.devRef .tc main_v1) = val_main_v1 (F := Ideal) a1 :=
  (W2_of_ne m ρ c main_v1 (by decide)).trans (src_at1 m ρ c)
theorem dst_at2 : W2 m ρ c (Proc.devRef .tc main_v3) = val_main_v3 (F := Ideal) a1 :=
  (W2_of_ne m ρ c main_v3 (by decide)).trans (dst_at1 m ρ c)
theorem dis2_at2 : W2 m ρ c (Proc.devRef .tc main_v10) = val_main_v40 (F := Ideal) a1 a3 :=
  (W2_of_ne m ρ c main_v10 (by decide)).trans (dis2_at1 m ρ c)
theorem coef_at2 : W2 m ρ c (Proc.devRef .tc main_v26) = val_main_v26 (F := Ideal) a1 a3 :=
  (W2_of_ne m ρ c main_v26 (by decide)).trans (coef_at1 m ρ c)

/-! ## Region 0: the first matrix product -/

theorem lin1_at2 : W2 m ρ c (Proc.devRef .tc main_v27) = val_main_v4 (F := Ideal) a0 a4 := by
  refine (W2_arr m ρ c (2 : Fin cfg0.W)).trans ?_
  rw [RegionValue.dense0 (V1 m ρ) c]
  show Cert.Gcn.dense (W1 m ρ c (Proc.devRef .tc main_arg0)) (W1 m ρ c (Proc.devRef .tc main_arg4)) = _
  rw [arg0_at1, arg4_at1]
  exact (Cert.ReferenceIdeal.RefValue.dense1 _ _).symm

/-! ## The second stretch: the neighbour sum, and the two reshapes -/

theorem agg1_at3 : W3 m ρ c (Proc.devRef .tc main_v40) = val_main_v39 (F := Ideal) a0 a1 a3 a4 := by
  show after hostOps1 (W2 m ρ c) (Proc.devRef .tc main_v40) = _
  after_results_simp
  rw [coef_at2, src_at2, dst_at2, lin1_at2]
  rfl

theorem d1_at3 : W3 m ρ c (Proc.devRef .tc main_v41)
    = shapeCast S100000x1 (val_main_v40 (F := Ideal) a1 a3) shapeCasts_S100000_S100000x1 := by
  show after hostOps1 (W2 m ρ c) (Proc.devRef .tc main_v41) = _
  after_results_simp
  rw [dis2_at2]
  rfl

theorem b1_at3 : W3 m ρ c (Proc.devRef .tc main_v42) = shapeCast S1x128 a5 shapeCasts_S128_S1x128 := by
  show after hostOps1 (W2 m ρ c) (Proc.devRef .tc main_v42) = _
  after_results_simp
  rw [arg5_at2]
  rfl

theorem lin1_at3 : W3 m ρ c (Proc.devRef .tc main_v27) = val_main_v4 (F := Ideal) a0 a4 := by
  show after hostOps1 (W2 m ρ c) (Proc.devRef .tc main_v27) = _
  after_results_simp
  exact lin1_at2 m ρ c

/-! ## Region 1 closes the layer; region 2 is the second matrix product -/

theorem out1_at4 : W4 m ρ c (Proc.devRef .tc main_v43) = val_main_v48 (F := Ideal) a0 a1 a3 a4 a5 := by
  refine (W4_arr m ρ c (4 : Fin cfg1.W)).trans ?_
  rw [RegionValue.closing1 (V3 m ρ) c]
  show Cert.Gcn.combineCols (W3 m ρ c (Proc.devRef .tc main_v40)) (W3 m ρ c (Proc.devRef .tc main_v41))
    (W3 m ρ c (Proc.devRef .tc main_v27)) (W3 m ρ c (Proc.devRef .tc main_v42)) = _
  rw [agg1_at3, d1_at3, lin1_at3, b1_at3]
  refine (Cert.Gcn.combineCols_reshape _ _ _ _ _ _).trans ?_
  exact (Cert.ReferenceIdeal.RefValue.combine1 _ _ _ _ _).symm

theorem lin2_at5 : W5 m ρ c (Proc.devRef .tc main_v44) = val_main_v49 (F := Ideal) a0 a1 a3 a4 a5 a6 := by
  refine (W5_arr m ρ c (2 : Fin cfg2.W)).trans ?_
  rw [RegionValue.dense2 (V4 m ρ) c]
  show Cert.Gcn.dense (W4 m ρ c (Proc.devRef .tc main_v43)) (W4 m ρ c (Proc.devRef .tc main_arg6)) = _
  rw [out1_at4, arg6_at4]
  exact (Cert.ReferenceIdeal.RefValue.dense2 _ _ _ _ _ _).symm

end Cert.KernelIdeal.Chain

end
-- ==== Proof.Region3.lean ====
/-
  Region 3 (the second layer's closing step) as one whole-array function of the buffers it is entered with.

  As in the first layer: 20 points, point t takes rows 5000 t .. 5000 t + 4999 of the neighbour sum, of the one-column
  normalisation array and of the layer's matrix product, and the whole one-row bias array, and writes back the same rows
  of the output, which ends as `combineCols` of the four input arrays.
-/
import proofs.«138234_j20461224198768_1_alg».proof.Proof.Gen.KernelIdeal.Frame
import proofs.«138234_j20461224198768_1_alg».proof.Proof.Bodies
import proofs.«138234_j20461224198768_1_alg».proof.Proof.Spec
import proofs.«138234_j20461224198768_1_alg».proof.Proof.Region0

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The block index maps of region 3 over its 20 points: rows move with the point (the bias row stays), columns stay. -/
theorem index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 4000000 in
/-- What point t writes back is block t of the closing step of the four input arrays. -/
theorem flushed3 (c : Dev nD) (t : Fin cfg3.N) :
    (dat3 V c).flushed 4 t = ((cfg3.win 4).blk t).view.read (Elt Ideal)
      (Cert.Gcn.combineCols (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero origin2]
  simp only [View.ld_unit_zero (S := S5000x128) origin2, View.ld_unit_zero (S := S5000x1) origin2, View.ld_unit_zero (S := S1x128) origin2]
  obtain ⟨e0, e1, e2, e3, e4, e5, e6, e7, e8, e9⟩ := index3 t
  refine funext fun (j : S5000x128.Idx) => ?_
  obtain ⟨p, q, rfl⟩ : ∃ (p : Fin 5000) (q : Fin 128), j = ix2 p q := ⟨j 0, j 1, eq_ix2 j⟩
  refine (Bodies.combine3_apply (iblk3 V c 0 t) (iblk3 V c 1 t) (iblk3 V c 2 t) (iblk3 V c 3 t) p q).trans ?_
  show _ = Cert.Gcn.combineCols (V c (Pipeline.arrRef spec3 0)) (V c (Pipeline.arrRef spec3 1)) (V c (Pipeline.arrRef spec3 2)) (V c (Pipeline.arrRef spec3 3)) (((cfg3.win 4).blk t).view.emb (ix2 p q))
  unfold Cert.Gcn.combineCols
  have h0 : ((cfg3.win 0).blk t).view.emb (ix2 p q) = ((cfg3.win 4).blk t).view.emb (ix2 p q) := by
    funext a; apply Fin.ext
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 128 + 1 * q.val; omega
  have h1 : ((cfg3.win 1).blk t).view.emb (ix2 p (0 : Fin 1)) = ix2 ((((cfg3.win 4).blk t).view.emb (ix2 p q)) 0) (0 : Fin 1) := by
    funext a; apply Fin.ext
    match a with
    | ⟨0, _⟩ => show win3_1.index t (0 : Fin 2) * 5000 + 1 * p.val = win3_4.index t (0 : Fin 2) * 5000 + 1 * p.val; omega
    | ⟨1, _⟩ => show win3_1.index t (1 : Fin 2) * 1 + 1 * 0 = 0; omega
  have h2 : ((cfg3.win 2).blk t).view.emb (ix2 p q) = ((cfg3.win 4).blk t).view.emb (ix2 p q) := by
    funext a; apply Fin.ext
    match a with
    | ⟨0, _⟩ => show win3_2.index t (0 : Fin 2) * 5000 + 1 * p.val = win3_4.index t (0 : Fin 2) * 5000 + 1 * p.val; omega
    | ⟨1, _⟩ => show win3_2.index t (1 : Fin 2) * 128 + 1 * q.val = win3_4.index t (1 : Fin 2) * 128 + 1 * q.val; omega
  have h3 : ((cfg3.win 3).blk t).view.emb (ix2 (0 : Fin 1) q) = ix2 (0 : Fin 1) ((((cfg3.win 4).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega
  have hA : iblk3 V c 0 t (ix2 p q) = V c (Pipeline.arrRef spec3 0) (((cfg3.win 4).blk t).view.emb (ix2 p q)) :=
    congrArg (V c (Pipeline.arrRef spec3 0)) h0
  have hD : iblk3 V c 1 t (ix2 p (0 : Fin 1)) = V c (Pipeline.arrRef spec3 1) (ix2 ((((cfg3.win 4).blk t).view.emb (ix2 p q)) 0) (0 : Fin 1)) :=
    congrArg (V c (Pipeline.arrRef spec3 1)) h1
  have hH : iblk3 V c 2 t (ix2 p q) = V c (Pipeline.arrRef spec3 2) (((cfg3.win 4).blk t).view.emb (ix2 p q)) :=
    congrArg (V c (Pipeline.arrRef spec3 2)) h2
  have hB : iblk3 V c 3 t (ix2 (0 : Fin 1) q) = V c (Pipeline.arrRef spec3 3) (ix2 (0 : Fin 1) ((((cfg3.win 4).blk t).view.emb (ix2 p q)) 1)) :=
    congrArg (V c (Pipeline.arrRef spec3 3)) h3
  rw [hA, hD, hH, hB]

/-- An index of the output array is in point t's block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v60).slice (win3_4.rect t)).set ↔ _
  rw [View.set_slice_whole, Rect.mem_set_unit]
  exact Iff.rfl

/-- Every index of the output lies in the block of the point its row belongs to. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, by rw [show cfg3.N = 20 from N_3]; omega⟩, rfl⟩
  obtain ⟨e0, e1, e2, e3, e4, e5, e6, e7, e8, e9⟩ := index3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- Region 3's output array after the region is the closing step of its four input arrays as the region found them. -/
theorem closing3 (c : Dev nD) :
    (dat3 V c).arrAt 4 cfg3.N = Cert.Gcn.combineCols (V c (Pipeline.arrRef spec3 0)) (V c (Pipeline.arrRef spec3 1)) (V c (Pipeline.arrRef spec3 2)) (V c (Pipeline.arrRef spec3 3)) :=
  (dat3 V c).arrAt_eq_of_cover 4 _ (fun t _ => flushed3 V c t) cover3

end Cert.KernelIdeal.RegionValue

end
-- ==== Proof.Region4.lean ====
/-
  Region 4 (the third layer's matmul) as one whole-array function of the buffers it is entered with.

  As in the first two layers: 20 points, point t takes rows 5000 t .. 5000 t + 4999 of the second layer's output and the
  whole third weight matrix and writes back the same rows of the output, which ends as `dense` of the two input arrays.
-/
import proofs.«138234_j20461224198768_1_alg».proof.Proof.Gen.KernelIdeal.Frame
import proofs.«138234_j20461224198768_1_alg».proof.Proof.Bodies
import proofs.«138234_j20461224198768_1_alg».proof.Proof.Spec
import proofs.«138234_j20461224198768_1_alg».proof.Proof.Region0

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The block index maps of region 4 over its 20 points: rows move with the point, columns stay. -/
theorem index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the two input arrays. -/
theorem flushed4 (c : Dev nD) (t : Fin cfg4.N) :
    (dat4 V c).flushed 2 t = ((cfg4.win 2).blk t).view.read (Elt Ideal)
      (Cert.Gcn.dense (V c (Pipeline.arrRef spec4 0)) (V c (Pipeline.arrRef spec4 1))) := by
  show (cfg4.win 2).cut (grid4.coords t) ((dat4 V c).after 2 t) = _
  rw [after4_2]
  unfold out4_2
  rw [View.canon_unit_zero origin2]
  simp only [View.ld_unit_zero (S := S5000x128) origin2, View.ld_unit_zero (S := S128x128) origin2]
  obtain ⟨e0, e1, e2, e3, e4, e5⟩ := index4 t
  refine funext fun (j : S5000x128.Idx) => ?_
  obtain ⟨p, q, rfl⟩ : ∃ (p : Fin 5000) (q : Fin 128), j = ix2 p q := ⟨j 0, j 1, eq_ix2 j⟩
  refine (Bodies.dense4_apply (iblk4 V c 0 t) (iblk4 V c 1 t) p q).trans ?_
  show _ = Cert.Gcn.dense (V c (Pipeline.arrRef spec4 0)) (V c (Pipeline.arrRef spec4 1)) (((cfg4.win 2).blk t).view.emb (ix2 p q))
  unfold Cert.Gcn.dense
  refine Finset.sum_congr rfl fun k _ => ?_
  have h0 : ((cfg4.win 0).blk t).view.emb (ix2 p k) = ix2 ((((cfg4.win 2).blk t).view.emb (ix2 p q)) 0) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  have h1 : ((cfg4.win 1).blk t).view.emb (ix2 k q) = ix2 k ((((cfg4.win 2).blk t).view.emb (ix2 p q)) 1) := by
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  exact congrArg₂ (· * ·) (congrArg (V c (Pipeline.arrRef spec4 0)) h0) (congrArg (V c (Pipeline.arrRef spec4 1)) h1)

/-- An index of the output array is in point t's block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v61).slice (win4_2.rect t)).set ↔ _
  rw [View.set_slice_whole, Rect.mem_set_unit]
  exact Iff.rfl

/-- Every index of the output lies in the block of the point its row belongs to. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, by rw [show cfg4.N = 20 from N_4]; omega⟩, rfl⟩
  obtain ⟨e0, e1, e2, e3, e4, e5⟩ := index4 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- Region 4's output array after the region is the product of its two input arrays as the region found them. -/
theorem dense4 (c : Dev nD) :
    (dat4 V c).arrAt 2 cfg4.N = Cert.Gcn.dense (V c (Pipeline.arrRef spec4 0)) (V c (Pipeline.arrRef spec4 1)) :=
  (dat4 V c).arrAt_eq_of_cover 2 _ (fun t _ => flushed4 V c t) cover4

end Cert.KernelIdeal.RegionValue

end
-- ==== Proof.Layer2.lean ====
/-
  The second layer, buffer by buffer, in the kernel's program, against the reference's stages.

  Nothing between the first stretch and the fourth writes the edges' endpoints, the normalisation or the per-edge
  coefficient, so the fourth stretch reads what the first left. It forms the neighbour sum of the second matrix product
  exactly as the reference's second layer does (the reference computes the coefficient again, by the same operations from
  the same edge data), and reshapes the normalisation and the second bias. Region 3 closes the layer and region 4 is the
  third matrix product.
-/
import proofs.«138234_j20461224198768_1_alg».proof.Proof.Layer1
import proofs.«138234_j20461224198768_1_alg».proof.Proof.Region3
import proofs.«138234_j20461224198768_1_alg».proof.Proof.Region4

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.Read (val_main_v1 val_main_v3 val_main_v26 val_main_v40 val_main_v49 val_main_v84 val_main_v93 val_main_v94)

variable (m : (ℓ : Loc nD τ sig) → Buf (Elt Ideal) ℓ) (ρ : Dev nD → PrngReg) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)

/-! ## The edge-derived values where the fourth stretch reads them -/

theorem src_at5 : W5 m ρ c (Proc.devRef .tc main_v1) = val_main_v1 (F := Ideal) a1 := by
  refine (W5_of_ne m ρ c main_v1 (by decide)).trans ((W4_of_ne m ρ c main_v1 (by decide)).trans ?_)
  show after hostOps1 (W2 m ρ c) (Proc.devRef .tc main_v1) = _
  after_results_simp
  exact src_at2 m ρ c
theorem dst_at5 : W5 m ρ c (Proc.devRef .tc main_v3) = val_main_v3 (F := Ideal) a1 := by
  refine (W5_of_ne m ρ c main_v3 (by decide)).trans ((W4_of_ne m ρ c main_v3 (by decide)).trans ?_)
  show after hostOps1 (W2 m ρ c) (Proc.devRef .tc main_v3) = _
  after_results_simp
  exact dst_at2 m ρ c
theorem dis2_at5 : W5 m ρ c (Proc.devRef .tc main_v10) = val_main_v40 (F := Ideal) a1 a3 := by
  refine (W5_of_ne m ρ c main_v10 (by decide)).trans ((W4_of_ne m ρ c main_v10 (by decide)).trans ?_)
  show after hostOps1 (W2 m ρ c) (Proc.devRef .tc main_v10) = _
  after_results_simp
  exact dis2_at2 m ρ c
theorem coef_at5 : W5 m ρ c (Proc.devRef .tc main_v26) = val_main_v26 (F := Ideal) a1 a3 := by
  refine (W5_of_ne m ρ c main_v26 (by decide)).trans ((W4_of_ne m ρ c main_v26 (by decide)).trans ?_)
  show after hostOps1 (W2 m ρ c) (Proc.devRef .tc main_v26) = _
  after_results_simp
  exact coef_at2 m ρ c

/-! ## The fourth stretch: the neighbour sum, and the two reshapes -/

theorem agg2_at6 : W6 m ρ c (Proc.devRef .tc main_v57) = val_main_v84 (F := Ideal) a0 a1 a3 a4 a5 a6 := by
  show after hostOps3 (W5 m ρ c) (Proc.devRef .tc main_v57) = _
  after_results_simp
  rw [coef_at5, src_at5, dst_at5, lin2_at5]
  rfl

theorem d2_at6 : W6 m ρ c (Proc.devRef .tc main_v58)
    = shapeCast S100000x1 (val_main_v40 (F := Ideal) a1 a3) shapeCasts_S100000_S100000x1 := by
  show after hostOps3 (W5 m ρ c) (Proc.devRef .tc main_v58) = _
  after_results_simp
  rw [dis2_at5]
  rfl

theorem b2_at6 : W6 m ρ c (Proc.devRef .tc main_v59) = shapeCast S1x128 a7 shapeCasts_S128_S1x128 := by
  show after hostOps3 (W5 m ρ c) (Proc.devRef .tc main_v59) = _
  after_results_simp
  rw [arg7_at5]
  rfl

theorem lin2_at6 : W6 m ρ c (Proc.devRef .tc main_v44) = val_main_v49 (F := Ideal) a0 a1 a3 a4 a5 a6 := by
  show after hostOps3 (W5 m ρ c) (Proc.devRef .tc main_v44) = _
  after_results_simp
  exact lin2_at5 m ρ c

/-! ## Region 3 closes the layer; region 4 is the third matrix product -/

theorem out2_at7 : W7 m ρ c (Proc.devRef .tc main_v60) = val_main_v93 (F := Ideal) a0 a1 a3 a4 a5 a6 a7 := by
  refine (W7_arr m ρ c (4 : Fin cfg3.W)).trans ?_
  rw [RegionValue.closing3 (V6 m ρ) c]
  show Cert.Gcn.combineCols (W6 m ρ c (Proc.devRef .tc main_v57)) (W6 m ρ c (Proc.devRef .tc main_v58))
    (W6 m ρ c (Proc.devRef .tc main_v44)) (W6 m ρ c (Proc.devRef .tc main_v59)) = _
  rw [agg2_at6, d2_at6, lin2_at6, b2_at6]
  refine (Cert.Gcn.combineCols_reshape _ _ _ _ _ _).trans ?_
  exact (Cert.ReferenceIdeal.RefValue.combine2 _ _ _ _ _ _ _).symm

theorem lin3_at8 : W8 m ρ c (Proc.devRef .tc main_v61) = val_main_v94 (F := Ideal) a0 a1 a3 a4 a5 a6 a7 a8 := by
  refine (W8_arr m ρ c (2 : Fin cfg4.W)).trans ?_
  rw [RegionValue.dense4 (V7 m ρ) c]
  show Cert.Gcn.dense (W7 m ρ c (Proc.devRef .tc main_v60)) (W7 m ρ c (Proc.devRef .tc main_arg8)) = _
  rw [out2_at7, arg8_at7]
  exact (Cert.ReferenceIdeal.RefValue.dense3 _ _ _ _ _ _ _ _).symm

end Cert.KernelIdeal.Chain

end
-- ==== Proof.Region5.lean ====
/-
  Region 5 (the third layer's closing step) as one whole-array function of the buffers it is entered with.

  As in the first two layers: 20 points, point t takes rows 5000 t .. 5000 t + 4999 of the neighbour sum, of the
  one-column normalisation array and of the layer's matrix product, and the whole one-row bias array, and writes back the
  same rows of the output, which ends as `combineCols` of the four input arrays.
-/
import proofs.«138234_j20461224198768_1_alg».proof.Proof.Gen.KernelIdeal.Frame
import proofs.«138234_j20461224198768_1_alg».proof.Proof.Bodies
import proofs.«138234_j20461224198768_1_alg».proof.Proof.Spec
import proofs.«138234_j20461224198768_1_alg».proof.Proof.Region0

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The block index maps of region 5 over its 20 points: rows move with the point (the bias row stays), columns stay. -/
theorem index5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

set_option maxHeartbeats 4000000 in
/-- What point t writes back is block t of the closing step of the four input arrays. -/
theorem flushed5 (c : Dev nD) (t : Fin cfg5.N) :
    (dat5 V c).flushed 4 t = ((cfg5.win 4).blk t).view.read (Elt Ideal)
      (Cert.Gcn.combineCols (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero origin2]
  simp only [View.ld_unit_zero (S := S5000x128) origin2, View.ld_unit_zero (S := S5000x1) origin2, View.ld_unit_zero (S := S1x128) origin2]
  obtain ⟨e0, e1, e2, e3, e4, e5, e6, e7, e8, e9⟩ := index5 t
  refine funext fun (j : S5000x128.Idx) => ?_
  obtain ⟨p, q, rfl⟩ : ∃ (p : Fin 5000) (q : Fin 128), j = ix2 p q := ⟨j 0, j 1, eq_ix2 j⟩
  refine (Bodies.combine5_apply (iblk5 V c 0 t) (iblk5 V c 1 t) (iblk5 V c 2 t) (iblk5 V c 3 t) p q).trans ?_
  show _ = Cert.Gcn.combineCols (V c (Pipeline.arrRef spec5 0)) (V c (Pipeline.arrRef spec5 1)) (V c (Pipeline.arrRef spec5 2)) (V c (Pipeline.arrRef spec5 3)) (((cfg5.win 4).blk t).view.emb (ix2 p q))
  unfold Cert.Gcn.combineCols
  have h0 : ((cfg5.win 0).blk t).view.emb (ix2 p q) = ((cfg5.win 4).blk t).view.emb (ix2 p q) := by
    funext a; apply Fin.ext
    match a with
    | ⟨0, _⟩ => show win5_0.index t (0 : Fin 2) * 5000 + 1 * p.val = win5_4.index t (0 : Fin 2) * 5000 + 1 * p.val; omega
    | ⟨1, _⟩ => show win5_0.index t (1 : Fin 2) * 128 + 1 * q.val = win5_4.index t (1 : Fin 2) * 128 + 1 * q.val; omega
  have h1 : ((cfg5.win 1).blk t).view.emb (ix2 p (0 : Fin 1)) = ix2 ((((cfg5.win 4).blk t).view.emb (ix2 p q)) 0) (0 : Fin 1) := by
    funext a; apply Fin.ext
    match a with
    | ⟨0, _⟩ => show win5_1.index t (0 : Fin 2) * 5000 + 1 * p.val = win5_4.index t (0 : Fin 2) * 5000 + 1 * p.val; omega
    | ⟨1, _⟩ => show win5_1.index t (1 : Fin 2) * 1 + 1 * 0 = 0; omega
  have h2 : ((cfg5.win 2).blk t).view.emb (ix2 p q) = ((cfg5.win 4).blk t).view.emb (ix2 p q) := by
    funext a; apply Fin.ext
    match a with
    | ⟨0, _⟩ => show win5_2.index t (0 : Fin 2) * 5000 + 1 * p.val = win5_4.index t (0 : Fin 2) * 5000 + 1 * p.val; omega
    | ⟨1, _⟩ => show win5_2.index t (1 : Fin 2) * 128 + 1 * q.val = win5_4.index t (1 : Fin 2) * 128 + 1 * q.val; omega
  have h3 : ((cfg5.win 3).blk t).view.emb (ix2 (0 : Fin 1) q) = ix2 (0 : Fin 1) ((((cfg5.win 4).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 128 + 1 * q.val = win5_4.index t (1 : Fin 2) * 128 + 1 * q.val; omega
  have hA : iblk5 V c 0 t (ix2 p q) = V c (Pipeline.arrRef spec5 0) (((cfg5.win 4).blk t).view.emb (ix2 p q)) :=
    congrArg (V c (Pipeline.arrRef spec5 0)) h0
  have hD : iblk5 V c 1 t (ix2 p (0 : Fin 1)) = V c (Pipeline.arrRef spec5 1) (ix2 ((((cfg5.win 4).blk t).view.emb (ix2 p q)) 0) (0 : Fin 1)) :=
    congrArg (V c (Pipeline.arrRef spec5 1)) h1
  have hH : iblk5 V c 2 t (ix2 p q) = V c (Pipeline.arrRef spec5 2) (((cfg5.win 4).blk t).view.emb (ix2 p q)) :=
    congrArg (V c (Pipeline.arrRef spec5 2)) h2
  have hB : iblk5 V c 3 t (ix2 (0 : Fin 1) q) = V c (Pipeline.arrRef spec5 3) (ix2 (0 : Fin 1) ((((cfg5.win 4).blk t).view.emb (ix2 p q)) 1)) :=
    congrArg (V c (Pipeline.arrRef spec5 3)) h3
  rw [hA, hD, hH, hB]

/-- An index of the output array is in point t's block iff each coordinate is in the block's range on its axis. -/
theorem mem_blk5 (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v77).slice (win5_4.rect t)).set ↔ _
  rw [View.set_slice_whole, Rect.mem_set_unit]
  exact Iff.rfl

/-- Every index of the output lies in the block of the point its row belongs to. -/
theorem cover5 (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  obtain ⟨t, ht⟩ : ∃ t : Fin cfg5.N, t.val = (i 0).val / 5000 :=
    ⟨⟨(i 0).val / 5000, by rw [show cfg5.N = 20 from N_5]; omega⟩, rfl⟩
  obtain ⟨e0, e1, e2, e3, e4, e5, e6, e7, e8, e9⟩ := index5 t
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- Region 5's output array after the region is the closing step of its four input arrays as the region found them. -/
theorem closing5 (c : Dev nD) :
    (dat5 V c).arrAt 4 cfg5.N = Cert.Gcn.combineCols (V c (Pipeline.arrRef spec5 0)) (V c (Pipeline.arrRef spec5 1)) (V c (Pipeline.arrRef spec5 2)) (V c (Pipeline.arrRef spec5 3)) :=
  (dat5 V c).arrAt_eq_of_cover 4 _ (fun t _ => flushed5 V c t) cover5

end Cert.KernelIdeal.RegionValue

end
-- ==== Proof.Layer3.lean ====
/-
  The third layer and the read-out, buffer by buffer, in the kernel's program, against the reference's stages.

  The sixth stretch reads the edge-derived values the first stretch left (nothing in between writes them), forms the
  neighbour sum of the third matrix product as the reference's third layer does, and reshapes the normalisation and the
  third bias; region 5 closes the layer. The last stretch is the reference's read-out operation for operation: the node
  features summed per graph, divided by the per-graph node count clamped below at one, multiplied with the read-out
  matrix, plus the read-out bias.
-/
import proofs.«138234_j20461224198768_1_alg».proof.Proof.Layer2
import proofs.«138234_j20461224198768_1_alg».proof.Proof.Region5

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.Read (val_main_v1 val_main_v3 val_main_v26 val_main_v40 val_main_v94 val_main_v129 val_main_v138 val_main_v154)

variable (m : (ℓ : Loc nD τ sig) → Buf (Elt Ideal) ℓ) (ρ : Dev nD → PrngReg) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)

/-! ## The edge-derived values where the sixth stretch reads them -/

theorem src_at8 : W8 m ρ c (Proc.devRef .tc main_v1) = val_main_v1 (F := Ideal) a1 := by
  refine (W8_of_ne m ρ c main_v1 (by decide)).trans ((W7_of_ne m ρ c main_v1 (by decide)).trans ?_)
  show after hostOps3 (W5 m ρ c) (Proc.devRef .tc main_v1) = _
  after_results_simp
  exact src_at5 m ρ c
theorem dst_at8 : W8 m ρ c (Proc.devRef .tc main_v3) = val_main_v3 (F := Ideal) a1 := by
  refine (W8_of_ne m ρ c main_v3 (by decide)).trans ((W7_of_ne m ρ c main_v3 (by decide)).trans ?_)
  show after hostOps3 (W5 m ρ c) (Proc.devRef .tc main_v3) = _
  after_results_simp
  exact dst_at5 m ρ c
theorem dis2_at8 : W8 m ρ c (Proc.devRef .tc main_v10) = val_main_v40 (F := Ideal) a1 a3 := by
  refine (W8_of_ne m ρ c main_v10 (by decide)).trans ((W7_of_ne m ρ c main_v10 (by decide)).trans ?_)
  show after hostOps3 (W5 m ρ c) (Proc.devRef .tc main_v10) = _
  after_results_simp
  exact dis2_at5 m ρ c
theorem coef_at8 : W8 m ρ c (Proc.devRef .tc main_v26) = val_main_v26 (F := Ideal) a1 a3 := by
  refine (W8_of_ne m ρ c main_v26 (by decide)).trans ((W7_of_ne m ρ c main_v26 (by decide)).trans ?_)
  show after hostOps3 (W5 m ρ c) (Proc.devRef .tc main_v26) = _
  after_results_simp
  exact coef_at5 m ρ c

/-! ## The sixth stretch: the neighbour sum, and the two reshapes -/

theorem agg3_at9 : W9 m ρ c (Proc.devRef .tc main_v74) = val_main_v129 (F := Ideal) a0 a1 a3 a4 a5 a6 a7 a8 := by
  show after hostOps5 (W8 m ρ c) (Proc.devRef .tc main_v74) = _
  after_results_simp
  rw [coef_at8, src_at8, dst_at8, lin3_at8]
  rfl

theorem d3_at9 : W9 m ρ c (Proc.devRef .tc main_v75)
    = shapeCast S100000x1 (val_main_v40 (F := Ideal) a1 a3) shapeCasts_S100000_S100000x1 := by
  show after hostOps5 (W8 m ρ c) (Proc.devRef .tc main_v75) = _
  after_results_simp
  rw [dis2_at8]
  rfl

theorem b3_at9 : W9 m ρ c (Proc.devRef .tc main_v76) = shapeCast S1x128 a9 shapeCasts_S128_S1x128 := by
  show after hostOps5 (W8 m ρ c) (Proc.devRef .tc main_v76) = _
  after_results_simp
  rw [arg9_at8]
  rfl

theorem lin3_at9 : W9 m ρ c (Proc.devRef .tc main_v61) = val_main_v94 (F := Ideal) a0 a1 a3 a4 a5 a6 a7 a8 := by
  show after hostOps5 (W8 m ρ c) (Proc.devRef .tc main_v61) = _
  after_results_simp
  exact lin3_at8 m ρ c

/-! ## Region 5 closes the layer -/

theorem out3_at10 : W10 m ρ c (Proc.devRef .tc main_v77) = val_main_v138 (F := Ideal) a0 a1 a3 a4 a5 a6 a7 a8 a9 := by
  refine (W10_arr m ρ c (4 : Fin cfg5.W)).trans ?_
  rw [RegionValue.closing5 (V9 m ρ) c]
  show Cert.Gcn.combineCols (W9 m ρ c (Proc.devRef .tc main_v74)) (W9 m ρ c (Proc.devRef .tc main_v75))
    (W9 m ρ c (Proc.devRef .tc main_v61)) (W9 m ρ c (Proc.devRef .tc main_v76)) = _
  rw [agg3_at9, d3_at9, lin3_at9, b3_at9]
  refine (Cert.Gcn.combineCols_reshape _ _ _ _ _ _).trans ?_
  exact (Cert.ReferenceIdeal.RefValue.combine3 _ _ _ _ _ _ _ _ _).symm

/-! ## The read-out -/

/-- The kernel's result buffer at the last boundary is the reference's result stage of the launch contents. -/
theorem result_at11 : W11 m ρ c (Proc.devRef .tc main_v93)
    = val_main_v154 (F := Ideal) a0 a1 a2 a3 a4 a5 a6 a7 a8 a9 a10 a11 := by
  show after hostOps6 (W10 m ρ c) (Proc.devRef .tc main_v93) = _
  after_results_simp
  rw [out3_at10, arg2_at10, arg10_at10, arg11_at10]
  rfl

end Cert.KernelIdeal.Chain

end
-- ==== Proof.lean ====
/-
  A three-layer graph convolution with mean pooling and a linear read-out: the kernel's program against its reference,
  equal as extended reals.

  Per layer both programs compute, for node features h, weights W and bias b,
      relu( ( scatter-add over edges of coef[e] * (h W)[source e]  +  d * (h W) ) + b ),
  with coef[e] = dis[source e] * weight[e] * dis[target e], d = dis * dis and dis = rsqrt(1 + the weights summed into each
  node), then the mean of the node features over each graph (the sum divided by the node count clamped below at one)
  times the read-out matrix plus the read-out bias. The reference states all of it as host operations; the kernel's
  program computes h W and the closing step of each layer (the sum of the three terms, grouped as above, clamped at
  zero) in six kernel regions over blocks of 5000 rows, and everything else by the same host operations.

  The six regions' output arrays are the two whole-array functions of Proof/Spec.lean (Proof/Region0 … Region5, over the
  bodies read at an index in Proof/Bodies.lean): the operands narrowed to bf16 are themselves on the extended reals, and a
  block product into a zero accumulator is the plain sum over the contracted axis, which is also what the host's matrix
  product is. The reference's stages are the same two functions (Proof/RefValue.lean). Between the regions both programs
  apply the same gather, scatter-add and pointwise operations to equal operands, so the kernel's buffers are the
  reference's stages one after the other (Proof/Carried.lean, Proof/Layer1 … Layer3), up to the result. No law of the
  extended reals beyond this reading is used, and the precondition (finite inputs) is not needed for the equality.

  The frames of the kernel and of its idealization are the generated ones; the reference's frame is its generated run
  with the result dropped; the idealization rewrote no operation, so there is nothing to preserve; the idealized
  kernel's run is read at its result buffer in Proof/KernelRun.lean.
-/
import proofs.«138234_j20461224198768_1_alg».proof.Defs
import proofs.«138234_j20461224198768_1_alg».proof.Proof.Gen.Kernel
import proofs.«138234_j20461224198768_1_alg».proof.Proof.Gen.Kernel.Skeleton
import proofs.«138234_j20461224198768_1_alg».proof.Proof.Gen.Kernel.Launch
import proofs.«138234_j20461224198768_1_alg».proof.Proof.Gen.Kernel.Points
import proofs.«138234_j20461224198768_1_alg».proof.Proof.Gen.Kernel.Frame
import proofs.«138234_j20461224198768_1_alg».proof.Proof.Gen.KernelIdeal
import proofs.«138234_j20461224198768_1_alg».proof.Proof.Gen.KernelIdeal.Skeleton
import proofs.«138234_j20461224198768_1_alg».proof.Proof.Gen.KernelIdeal.Launch
import proofs.«138234_j20461224198768_1_alg».proof.Proof.Gen.KernelIdeal.Points
import proofs.«138234_j20461224198768_1_alg».proof.Proof.Gen.KernelIdeal.Frame
import proofs.«138234_j20461224198768_1_alg».proof.Proof.Gen.ReferenceIdeal
import proofs.«138234_j20461224198768_1_alg».proof.Proof.Gen.Pre_finite_inputs
import proofs.«138234_j20461224198768_1_alg».proof.Proof.Gen.ReferenceIdeal.Run
import proofs.«138234_j20461224198768_1_alg».proof.Proof.Gen.ReferenceIdeal.Read
import proofs.«138234_j20461224198768_1_alg».proof.Proof.KernelRun
import proofs.«138234_j20461224198768_1_alg».proof.Proof.Layer3
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result stage of the (agreeing) launch arrays in their result buffers. -/
theorem algebraic : Cert.algebraic_KernelIdeal_ReferenceIdeal := by
  intro m ρ m' ρ' _ hagree
  refine ⟨fun c => Cert.ReferenceIdeal.Read.val_main_v154 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.result_at11 m ρ c), (h c).2⟩)
      (Cert.KernelIdeal.Result.run m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11⟩ := hagree c
    refine (h c).1.trans ?_
    rw [Cert.ReferenceIdeal.Read.val_main_v154_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
